-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S128x512 : Shape := ⟨2, ![128, 512]⟩
abbrev S1x512 : Shape := ⟨2, ![1, 512]⟩
abbrev S512x384 : Shape := ⟨2, ![512, 384]⟩
abbrev S1x384 : Shape := ⟨2, ![1, 384]⟩
abbrev S384x128 : Shape := ⟨2, ![384, 128]⟩
abbrev S1x128 : Shape := ⟨2, ![1, 128]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S1x512 : S_.BroadcastsInDim S1x512 (![] : Fin 0 → Fin S1x512.rank)
  reducesTo_S1x512_S_d0_1 : S1x512.ReducesTo [0, 1] S_
  bcast_S_S512x384 : S_.BroadcastsInDim S512x384 (![] : Fin 0 → Fin S512x384.rank)
  reducesTo_S512x384_S_d0_1 : S512x384.ReducesTo [0, 1] S_
  bcast_S_S1x384 : S_.BroadcastsInDim S1x384 (![] : Fin 0 → Fin S1x384.rank)
  reducesTo_S1x384_S_d0_1 : S1x384.ReducesTo [0, 1] S_
  bcast_S_S384x128 : S_.BroadcastsInDim S384x128 (![] : Fin 0 → Fin S384x128.rank)
  reducesTo_S384x128_S_d0_1 : S384x128.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x384 .f32) (main_arg5 : FVec F S384x128 .f32) (main_arg6 : FVec F S1x128 .f32) (main_v13 : IVec S_ 1) (main_v16 : IVec S512x384 1) : IVec S_ 1 :=
  let main_c_5 : IVec S_ 1 := constantI S_ 1 1#1
  let main_v17 : IVec S_ 1 := (fun x v => Host.reduce IntOp.andi x v reducesTo_S512x384_S_d0_1 h_S_) main_v16 main_c_5
  let main_v18 : IVec S_ 1 := andi main_v13 main_v17
  let main_v19 : FVec F S1x384 .f32 := Host.absf main_arg4
  let main_cst_6 : FVec F S_ .f32 := constant S_ .f32 0x7F800000#32
  let main_v20 : FVec F S1x384 .f32 := broadcastInDim S1x384 ![] bcast_S_S1x384 main_cst_6
  let main_v21 : IVec S1x384 1 := cmpf .olt main_v19 main_v20
  let main_c_7 : IVec S_ 1 := constantI S_ 1 1#1
  let main_v22 : IVec S_ 1 := (fun x v => Host.reduce IntOp.andi x v reducesTo_S1x384_S_d0_1 h_S_) main_v21 main_c_7
  let main_v23 : IVec S_ 1 := andi main_v18 main_v22
  let main_v24 : FVec F S384x128 .f32 := Host.absf main_arg5
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S1x128 .f32 := Host.absf main_arg6
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  main_v33

def fn {F : FTy → Type} [FloatOps F] (main_arg0 : FVec F S65536x128 .f32) (main_arg1 : FVec F S128x512 .f32) (main_arg2 : FVec F S1x512 .f32) (main_arg3 : FVec F S512x384 .f32) (main_arg4 : FVec F S1x384 .f32) (main_arg5 : FVec F S384x128 .f32) (main_arg6 : FVec F S1x128 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S512x384 .f32 := Host.absf main_arg3
  let main_cst_4 : FVec F S_ .f32 := constant S_ .f32 0x7F800000#32
  let main_v15 : FVec F S512x384 .f32 := broadcastInDim S512x384 ![] bcast_S_S512x384 main_cst_4
  let main_v16 : IVec S512x384 1 := cmpf .olt main_v14 main_v15
  fn_part1 (F := F) main_arg4 main_arg5 main_arg6 main_v13 main_v16
-- ==== Kernel.lean ====
abbrev S65536x128 : Shape := ⟨2, ![65536, 128]⟩
abbrev S128x512 : Shape := ⟨2, ![128, 512]⟩
abbrev S1x512 : Shape := ⟨2, ![1, 512]⟩
abbrev S512x384 : Shape := ⟨2, ![512, 384]⟩
abbrev S1x384 : Shape := ⟨2, ![1, 384]⟩
abbrev S384x128 : Shape := ⟨2, ![384, 128]⟩
abbrev S1x128 : Shape := ⟨2, ![1, 128]⟩
abbrev S65536x24 : Shape := ⟨2, ![65536, 24]⟩
abbrev S8192x128 : Shape := ⟨2, ![8192, 128]⟩
abbrev S8192x24 : Shape := ⟨2, ![8192, 24]⟩
abbrev S8192x512 : Shape := ⟨2, ![8192, 512]⟩
abbrev S8192x384 : Shape := ⟨2, ![8192, 384]⟩

abbrev nBuf : Space → Nat
  | .hbm => 9
  | .vmem => 13
  | .smem => 0
  | _ => 0

abbrev bufTy : (tb : Table) → Fin (tcTables nBuf tb) → BufTy
  | .hbm, ⟨0, _⟩ => ⟨S65536x128, .f32⟩
  | .hbm, ⟨1, _⟩ => ⟨S128x512, .f32⟩
  | .hbm, ⟨2, _⟩ => ⟨S1x512, .f32⟩
  | .hbm, ⟨3, _⟩ => ⟨S512x384, .f32⟩
  | .hbm, ⟨4, _⟩ => ⟨S1x384, .f32⟩
  | .hbm, ⟨5, _⟩ => ⟨S384x128, .f32⟩
  | .hbm, ⟨6, _⟩ => ⟨S1x128, .f32⟩
  | .hbm, ⟨7, _⟩ => ⟨S65536x24, .bf16⟩
  | .hbm, ⟨8, _⟩ => ⟨S65536x24, .f32⟩
  | .local _ .vmem, ⟨0, _⟩ => ⟨S8192x128, .f32⟩
  | .local _ .vmem, ⟨1, _⟩ => ⟨S8192x128, .f32⟩
  | .local _ .vmem, ⟨2, _⟩ => ⟨S128x512, .f32⟩
  | .local _ .vmem, ⟨3, _⟩ => ⟨S1x512, .f32⟩
  | .local _ .vmem, ⟨4, _⟩ => ⟨S512x384, .f32⟩
  | .local _ .vmem, ⟨5, _⟩ => ⟨S1x384, .f32⟩
  | .local _ .vmem, ⟨6, _⟩ => ⟨S384x128, .f32⟩
  | .local _ .vmem, ⟨7, _⟩ => ⟨S1x128, .f32⟩
  | .local _ .vmem, ⟨8, _⟩ => ⟨S8192x24, .bf16⟩
  | .local _ .vmem, ⟨9, _⟩ => ⟨S8192x24, .bf16⟩
  | .local _ .vmem, ⟨10, _⟩ => ⟨S128x512, .bf16⟩
  | .local _ .vmem, ⟨11, _⟩ => ⟨S512x384, .bf16⟩
  | .local _ .vmem, ⟨12, _⟩ => ⟨S384x128, .bf16⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x24 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S128x512_S128x512_0_0 : ∀ a, (![0, 0] : Fin 2 → Nat) a + S128x512.size a ≤ S128x512.size a
  h_S128x512 : 0 < S128x512.numel
  bitsLt_bf16_f32 : FTy.bits .bf16 < FTy.bits .f32
  shapeCasts_S128x512_S128x512 : S128x512.ShapeCasts S128x512
  packedbf16_S128x512_S128x512_0_0 : (Rect.unit (s := S128x512) ![0, 0] S128x512.size inb_S128x512_S128x512_0_0).PackedRows (EltTy.packing .bf16)
  inb_S512x384_S512x384_0_0 : ∀ a, (![0, 0] : Fin 2 → Nat) a + S512x384.size a ≤ S512x384.size a
  h_S512x384 : 0 < S512x384.numel
  shapeCasts_S512x384_S512x384 : S512x384.ShapeCasts S512x384
  packedbf16_S512x384_S512x384_0_0 : (Rect.unit (s := S512x384) ![0, 0] S512x384.size inb_S512x384_S512x384_0_0).PackedRows (EltTy.packing .bf16)
  inb_S384x128_S384x128_0_0 : ∀ a, (![0, 0] : Fin 2 → Nat) a + S384x128.size a ≤ S384x128.size a
  h_S384x128 : 0 < S384x128.numel
  shapeCasts_S384x128_S384x128 : S384x128.ShapeCasts S384x128
  packedbf16_S384x128_S384x128_0_0 : (Rect.unit (s := S384x128) ![0, 0] S384x128.size inb_S384x128_S384x128_0_0).PackedRows (EltTy.packing .bf16)
  inb_S8192x128_S8192x128_0_0 : ∀ a, (![0, 0] : Fin 2 → Nat) a + S8192x128.size a ≤ S8192x128.size a
  h_S8192x128 : 0 < S8192x128.numel
  inb_S1x512_S1x512_0_0 : ∀ a, (![0, 0] : Fin 2 → Nat) a + S1x512.size a ≤ S1x512.size a
  h_S1x512 : 0 < S1x512.numel
  broadcasts_S1x512_S8192x512 : S1x512.Broadcasts S8192x512
  inb_S1x384_S1x384_0_0 : ∀ a, (![0, 0] : Fin 2 → Nat) a + S1x384.size a ≤ S1x384.size a
  h_S1x384 : 0 < S1x384.numel
  broadcasts_S1x384_S8192x384 : S1x384.Broadcasts S8192x384
  inb_S1x128_S1x128_0_0 : ∀ a, (![0, 0] : Fin 2 → Nat) a + S1x128.size a ≤ S1x128.size a
  h_S1x128 : 0 < S1x128.numel
  broadcasts_S1x128_S8192x128 : S1x128.Broadcasts S8192x128
  slices_S8192x128_o0_0_S8192x24 : S8192x128.Slices ![0, 0] S8192x24
  inb_S8192x24_S8192x24_0_0 : ∀ a, (![0, 0] : Fin 2 → Nat) a + S8192x24.size a ≤ S8192x24.size a
  h_S8192x24 : 0 < S8192x24.numel
  packedbf16_S8192x24_S8192x24_0_0 : (Rect.unit (s := S8192x24) ![0, 0] S8192x24.size inb_S8192x24_S8192x24_0_0).PackedRows (EltTy.packing .bf16)
  dot_S8192x128_S128x512_S8192x512_1_0_0_1_n_n_wf : DotDims.WF S8192x128 S128x512 S8192x512 [1] [0] [0] [1] [] []
  dot_S8192x512_S512x384_S8192x384_1_0_0_1_n_n_wf : DotDims.WF S8192x512 S512x384 S8192x384 [1] [0] [0] [1] [] []
  dot_S8192x384_S384x128_S8192x128_1_0_0_1_n_n_wf : DotDims.WF S8192x384 S384x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S65536x128.size a
  hwx0_0 : ∀ i : grid0.Coords, EltTy.bits .f32 = 32 ∨ (Rect.block (s := S65536x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x384.size a ≤ S512x384.size a
  hwx0_3 : ∀ i : grid0.Coords, EltTy.bits .f32 = 32 ∨ (Rect.block (s := S512x384) S512x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x128.size a ≤ S384x128.size a
  hwx0_5 : ∀ i : grid0.Coords, EltTy.bits .f32 = 32 ∨ (Rect.block (s := S384x128) S384x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x24.size a ≤ S65536x24.size a
  hwx0_7 : ∀ i : grid0.Coords, EltTy.bits .bf16 = 32 ∨ (Rect.block (s := S65536x24) S8192x24.size (cc0_transform_7 i) (hinb0_7 i)).WholeWords (EltTy.packing .bf16)

variable [Facts₀]

def dot_S8192x128_S128x512_S8192x512_1_0_0_1_n_n : DotDims S8192x128 S128x512 S8192x512 where
  lhsContracting := [1]
  rhsContracting := [0]
  lhsNonContracting := [0]
  rhsNonContracting := [1]
  lhsBatch := []
  rhsBatch := []
  wf := dot_S8192x128_S128x512_S8192x512_1_0_0_1_n_n_wf
def dot_S8192x512_S512x384_S8192x384_1_0_0_1_n_n : DotDims S8192x512 S512x384 S8192x384 where
  lhsContracting := [1]
  rhsContracting := [0]
  lhsNonContracting := [0]
  rhsNonContracting := [1]
  lhsBatch := []
  rhsBatch := []
  wf := dot_S8192x512_S512x384_S8192x384_1_0_0_1_n_n_wf
def dot_S8192x384_S384x128_S8192x128_1_0_0_1_n_n : DotDims S8192x384 S384x128 S8192x128 where
  lhsContracting := [1]
  rhsContracting := [0]
  lhsNonContracting := [0]
  rhsNonContracting := [1]
  lhsBatch := []
  rhsBatch := []
  wf := dot_S8192x384_S384x128_S8192x128_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S384x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S8192x24.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x128 : Shape := ⟨2, ![65536, 128]⟩
abbrev S128x512 : Shape := ⟨2, ![128, 512]⟩
abbrev S1x512 : Shape := ⟨2, ![1, 512]⟩
abbrev S512x384 : Shape := ⟨2, ![512, 384]⟩
abbrev S1x384 : Shape := ⟨2, ![1, 384]⟩
abbrev S384x128 : Shape := ⟨2, ![384, 128]⟩
abbrev S1x128 : Shape := ⟨2, ![1, 128]⟩
abbrev S_ : Shape := ⟨0, ![]⟩
abbrev S65536x24 : Shape := ⟨2, ![65536, 24]⟩
abbrev S256x128 : Shape := ⟨2, ![256, 128]⟩
abbrev S256x512 : Shape := ⟨2, ![256, 512]⟩
abbrev S256x384 : Shape := ⟨2, ![256, 384]⟩

abbrev nBuf : Space → Nat
  | .hbm => 12
  | .vmem => 10
  | .smem => 0
  | _ => 0

abbrev bufTy : (tb : Table) → Fin (tcTables nBuf tb) → BufTy
  | .hbm, ⟨0, _⟩ => ⟨S65536x128, .f32⟩
  | .hbm, ⟨1, _⟩ => ⟨S128x512, .f32⟩
  | .hbm, ⟨2, _⟩ => ⟨S1x512, .f32⟩
  | .hbm, ⟨3, _⟩ => ⟨S512x384, .f32⟩
  | .hbm, ⟨4, _⟩ => ⟨S1x384, .f32⟩
  | .hbm, ⟨5, _⟩ => ⟨S384x128, .f32⟩
  | .hbm, ⟨6, _⟩ => ⟨S1x128, .f32⟩
  | .hbm, ⟨7, _⟩ => ⟨S_, .i32⟩
  | .hbm, ⟨8, _⟩ => ⟨S_, .f32⟩
  | .hbm, ⟨9, _⟩ => ⟨S65536x128, .f32⟩
  | .hbm, ⟨10, _⟩ => ⟨S65536x128, .f32⟩
  | .hbm, ⟨11, _⟩ => ⟨S65536x24, .f32⟩
  | .local _ .vmem, ⟨0, _⟩ => ⟨S256x128, .f32⟩
  | .local _ .vmem, ⟨1, _⟩ => ⟨S256x128, .f32⟩
  | .local _ .vmem, ⟨2, _⟩ => ⟨S128x512, .f32⟩
  | .local _ .vmem, ⟨3, _⟩ => ⟨S1x512, .f32⟩
  | .local _ .vmem, ⟨4, _⟩ => ⟨S512x384, .f32⟩
  | .local _ .vmem, ⟨5, _⟩ => ⟨S1x384, .f32⟩
  | .local _ .vmem, ⟨6, _⟩ => ⟨S384x128, .f32⟩
  | .local _ .vmem, ⟨7, _⟩ => ⟨S1x128, .f32⟩
  | .local _ .vmem, ⟨8, _⟩ => ⟨S256x128, .f32⟩
  | .local _ .vmem, ⟨9, _⟩ => ⟨S256x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_call0_v0 : Ref sig .tc := ⟨.hbm, 8, rfl⟩
abbrev main_call0_v0 : Ref sig .tc := ⟨.hbm, 9, rfl⟩
abbrev main_call0_v1 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  pads_S65536x128_S65536x128_000_000 : S65536x128.Pads (![0, 0] : Fin 2 → Nat) ![0, 0] ![0, 0] S65536x128
  h_S_ : 0 < S_.numel
  slices_S65536x128_S65536x24_0_0 : S65536x128.Slices ![0, 0] S65536x24
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  broadcasts_S1x512_S256x512 : S1x512.Broadcasts S256x512
  inb_S512x384_S512x384_0_0 : ∀ a, (![0, 0] : Fin 2 → Nat) a + S512x384.size a ≤ S512x384.size a
  h_S512x384 : 0 < S512x384.numel
  inb_S1x384_S1x384_0_0 : ∀ a, (![0, 0] : Fin 2 → Nat) a + S1x384.size a ≤ S1x384.size a
  h_S1x384 : 0 < S1x384.numel
  broadcasts_S1x384_S256x384 : S1x384.Broadcasts S256x384
  inb_S384x128_S384x128_0_0 : ∀ a, (![0, 0] : Fin 2 → Nat) a + S384x128.size a ≤ S384x128.size a
  h_S384x128 : 0 < S384x128.numel
  inb_S1x128_S1x128_0_0 : ∀ a, (![0, 0] : Fin 2 → Nat) a + S1x128.size a ≤ S1x128.size a
  h_S1x128 : 0 < S1x128.numel
  broadcasts_S1x128_S256x128 : S1x128.Broadcasts S256x128
  dot_S256x128_S128x512_S256x512_1_0_0_1_n_n_wf : DotDims.WF S256x128 S128x512 S256x512 [1] [0] [0] [1] [] []
  dot_S256x512_S512x384_S256x384_1_0_0_1_n_n_wf : DotDims.WF S256x512 S512x384 S256x384 [1] [0] [0] [1] [] []
  dot_S256x384_S384x128_S256x128_1_0_0_1_n_n_wf : DotDims.WF S256x384 S384x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S65536x128.size a
  hwx0_0 : ∀ i : grid0.Coords, EltTy.bits .f32 = 32 ∨ (Rect.block (s := S65536x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x384.size a ≤ S512x384.size a
  hwx0_3 : ∀ i : grid0.Coords, EltTy.bits .f32 = 32 ∨ (Rect.block (s := S512x384) S512x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x128.size a ≤ S384x128.size a
  hwx0_5 : ∀ i : grid0.Coords, EltTy.bits .f32 = 32 ∨ (Rect.block (s := S384x128) S384x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S65536x128.size a
  hwx0_7 : ∀ i : grid0.Coords, EltTy.bits .f32 = 32 ∨ (Rect.block (s := S65536x128) S256x128.size (cc0_transform_7 i) (hinb0_7 i)).WholeWords (EltTy.packing .f32)

variable [Facts₀]

def dot_S256x128_S128x512_S256x512_1_0_0_1_n_n : DotDims S256x128 S128x512 S256x512 where
  lhsContracting := [1]
  rhsContracting := [0]
  lhsNonContracting := [0]
  rhsNonContracting := [1]
  lhsBatch := []
  rhsBatch := []
  wf := dot_S256x128_S128x512_S256x512_1_0_0_1_n_n_wf
def dot_S256x512_S512x384_S256x384_1_0_0_1_n_n : DotDims S256x512 S512x384 S256x384 where
  lhsContracting := [1]
  rhsContracting := [0]
  lhsNonContracting := [0]
  rhsNonContracting := [1]
  lhsBatch := []
  rhsBatch := []
  wf := dot_S256x512_S512x384_S256x384_1_0_0_1_n_n_wf
def dot_S256x384_S384x128_S256x128_1_0_0_1_n_n : DotDims S256x384 S384x128 S256x128 where
  lhsContracting := [1]
  rhsContracting := [0]
  lhsNonContracting := [0]
  rhsNonContracting := [1]
  lhsBatch := []
  rhsBatch := []
  wf := dot_S256x384_S384x128_S256x128_1_0_0_1_n_n_wf

abbrev win0_0 : Pipeline.Window sig grid0 :=
  Pipeline.Window.ofSpec (Memref.whole main_call0_v0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S384x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v1) S256x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.KernelCases.lean ====
/-
  What one grid point of the kernel leaves behind, as values.

  At the first grid point the body first stores a copy of each weight matrix into its scratch buffer and
  then computes the output tile from those copies; at every later point it stores nothing into the scratch
  and computes the tile from what the scratch already holds. So after every point the three scratch buffers
  hold the copies of the three weight matrices, and the output tile is always the same function of the
  point's batch rows, the copies and the biases (by induction on the point).
-/
import proofs.«158750_g2000001118044285_pallasbulk_215_30_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

theorem hz : (![0, 0] : Fin 2 → Nat) = fun _ => 0 := funext fun a => by fin_cases a <;> rfl

/-- First point: the first scratch buffer ends at the copy of the first weight matrix. -/
theorem first_scratch0 (c : Dev nD) (i : grid0.Coords) (arg1 : Memref sig .tc .vmem S8192x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S512x384 .f32) (harg4 : arg4.IsWhole) (arg5 : Memref sig .tc .vmem S1x384 .f32) (harg5 : arg5.IsWhole) (arg6 : Memref sig .tc .vmem S384x128 .f32) (harg6 : arg6.IsWhole) (arg7 : Memref sig .tc .vmem S1x128 .f32) (harg7 : arg7.IsWhole) (arg8 : Memref sig .tc .vmem S8192x24 .bf16) (harg8 : arg8.IsWhole) (arg9 : Memref sig .tc .vmem S128x512 .bf16) (harg9 : arg9.IsWhole) (arg10 : Memref sig .tc .vmem S512x384 .bf16) (harg10 : arg10.IsWhole) (arg11 : Memref sig .tc .vmem S384x128 .bf16) (harg11 : arg11.IsWhole) (hc0 : cond0_0 i) (x0 : Vec F S8192x128 .f32) (x1 : Vec F S128x512 .f32) (x2 : Vec F S1x512 .f32) (x3 : Vec F S512x384 .f32) (x4 : Vec F S1x384 .f32) (x5 : Vec F S384x128 .f32) (x6 : Vec F S1x128 .f32) :
    sout0_A_0 c i arg1 harg1 arg2 harg2 arg3 harg3 arg4 harg4 arg5 harg5 arg6 harg6 arg7 harg7 arg8 harg8 arg9 harg9 arg10 harg10 arg11 harg11 hc0 x0 x1 x2 x3 x4 x5 x6 = k0_pay1 x1 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, harg11.read_unread, View.ld_unit_zero (S := S8192x128) hz, View.ld_unit_zero (S := S128x512) hz, View.ld_unit_zero (S := S1x512) hz, View.ld_unit_zero (S := S512x384) hz, View.ld_unit_zero (S := S1x384) hz, View.ld_unit_zero (S := S384x128) hz, View.ld_unit_zero (S := S1x128) hz]

/-- First point: the second scratch buffer ends at the copy of the second weight matrix. -/
theorem first_scratch1 (c : Dev nD) (i : grid0.Coords) (arg1 : Memref sig .tc .vmem S8192x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S512x384 .f32) (harg4 : arg4.IsWhole) (arg5 : Memref sig .tc .vmem S1x384 .f32) (harg5 : arg5.IsWhole) (arg6 : Memref sig .tc .vmem S384x128 .f32) (harg6 : arg6.IsWhole) (arg7 : Memref sig .tc .vmem S1x128 .f32) (harg7 : arg7.IsWhole) (arg8 : Memref sig .tc .vmem S8192x24 .bf16) (harg8 : arg8.IsWhole) (arg9 : Memref sig .tc .vmem S128x512 .bf16) (harg9 : arg9.IsWhole) (arg10 : Memref sig .tc .vmem S512x384 .bf16) (harg10 : arg10.IsWhole) (arg11 : Memref sig .tc .vmem S384x128 .bf16) (harg11 : arg11.IsWhole) (hc0 : cond0_0 i) (x0 : Vec F S8192x128 .f32) (x1 : Vec F S128x512 .f32) (x2 : Vec F S1x512 .f32) (x3 : Vec F S512x384 .f32) (x4 : Vec F S1x384 .f32) (x5 : Vec F S384x128 .f32) (x6 : Vec F S1x128 .f32) :
    sout0_A_1 c i arg1 harg1 arg2 harg2 arg3 harg3 arg4 harg4 arg5 harg5 arg6 harg6 arg7 harg7 arg8 harg8 arg9 harg9 arg10 harg10 arg11 harg11 hc0 x0 x1 x2 x3 x4 x5 x6 = k0_pay2 x3 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, harg11.read_unread, View.ld_unit_zero (S := S8192x128) hz, View.ld_unit_zero (S := S128x512) hz, View.ld_unit_zero (S := S1x512) hz, View.ld_unit_zero (S := S512x384) hz, View.ld_unit_zero (S := S1x384) hz, View.ld_unit_zero (S := S384x128) hz, View.ld_unit_zero (S := S1x128) hz]

/-- First point: the third scratch buffer ends at the copy of the third weight matrix. -/
theorem first_scratch2 (c : Dev nD) (i : grid0.Coords) (arg1 : Memref sig .tc .vmem S8192x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S512x384 .f32) (harg4 : arg4.IsWhole) (arg5 : Memref sig .tc .vmem S1x384 .f32) (harg5 : arg5.IsWhole) (arg6 : Memref sig .tc .vmem S384x128 .f32) (harg6 : arg6.IsWhole) (arg7 : Memref sig .tc .vmem S1x128 .f32) (harg7 : arg7.IsWhole) (arg8 : Memref sig .tc .vmem S8192x24 .bf16) (harg8 : arg8.IsWhole) (arg9 : Memref sig .tc .vmem S128x512 .bf16) (harg9 : arg9.IsWhole) (arg10 : Memref sig .tc .vmem S512x384 .bf16) (harg10 : arg10.IsWhole) (arg11 : Memref sig .tc .vmem S384x128 .bf16) (harg11 : arg11.IsWhole) (hc0 : cond0_0 i) (x0 : Vec F S8192x128 .f32) (x1 : Vec F S128x512 .f32) (x2 : Vec F S1x512 .f32) (x3 : Vec F S512x384 .f32) (x4 : Vec F S1x384 .f32) (x5 : Vec F S384x128 .f32) (x6 : Vec F S1x128 .f32) :
    sout0_A_2 c i arg1 harg1 arg2 harg2 arg3 harg3 arg4 harg4 arg5 harg5 arg6 harg6 arg7 harg7 arg8 harg8 arg9 harg9 arg10 harg10 arg11 harg11 hc0 x0 x1 x2 x3 x4 x5 x6 = k0_pay3 x5 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, harg11.read_unread, View.ld_unit_zero (S := S8192x128) hz, View.ld_unit_zero (S := S128x512) hz, View.ld_unit_zero (S := S1x512) hz, View.ld_unit_zero (S := S512x384) hz, View.ld_unit_zero (S := S1x384) hz, View.ld_unit_zero (S := S384x128) hz, View.ld_unit_zero (S := S1x128) hz]

/-- First point: the output tile is computed from the copies just stored (each read back whole). -/
theorem first_tile (c : Dev nD) (i : grid0.Coords) (arg1 : Memref sig .tc .vmem S8192x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S512x384 .f32) (harg4 : arg4.IsWhole) (arg5 : Memref sig .tc .vmem S1x384 .f32) (harg5 : arg5.IsWhole) (arg6 : Memref sig .tc .vmem S384x128 .f32) (harg6 : arg6.IsWhole) (arg7 : Memref sig .tc .vmem S1x128 .f32) (harg7 : arg7.IsWhole) (arg8 : Memref sig .tc .vmem S8192x24 .bf16) (harg8 : arg8.IsWhole) (arg9 : Memref sig .tc .vmem S128x512 .bf16) (harg9 : arg9.IsWhole) (arg10 : Memref sig .tc .vmem S512x384 .bf16) (harg10 : arg10.IsWhole) (arg11 : Memref sig .tc .vmem S384x128 .bf16) (harg11 : arg11.IsWhole) (hc0 : cond0_0 i) (x0 : Vec F S8192x128 .f32) (x1 : Vec F S128x512 .f32) (x2 : Vec F S1x512 .f32) (x3 : Vec F S512x384 .f32) (x4 : Vec F S1x384 .f32) (x5 : Vec F S384x128 .f32) (x6 : Vec F S1x128 .f32) :
    out0_A_7 c i arg1 harg1 arg2 harg2 arg3 harg3 arg4 harg4 arg5 harg5 arg6 harg6 arg7 harg7 arg8 harg8 arg9 harg9 arg10 harg10 arg11 harg11 hc0 x0 x1 x2 x3 x4 x5 x6 = k0_pay4 x0 (k0_pay1 x1) x2 (k0_pay2 x3) x4 (k0_pay3 x5) x6 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, harg11.read_unread, View.ld_unit_zero (S := S8192x128) hz, View.ld_unit_zero (S := S128x512) hz, View.ld_unit_zero (S := S1x512) hz, View.ld_unit_zero (S := S512x384) hz, View.ld_unit_zero (S := S1x384) hz, View.ld_unit_zero (S := S384x128) hz, View.ld_unit_zero (S := S1x128) hz,
    View.readCov_unit_zero (S := S128x512) _ hz, View.readCov_unit_zero (S := S512x384) _ hz,
    View.readCov_unit_zero (S := S384x128) _ hz]

/-- A later point: the output tile is computed from what the scratch buffers hold. -/
theorem later_tile (c : Dev nD) (i : grid0.Coords) (arg1 : Memref sig .tc .vmem S8192x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S512x384 .f32) (harg4 : arg4.IsWhole) (arg5 : Memref sig .tc .vmem S1x384 .f32) (harg5 : arg5.IsWhole) (arg6 : Memref sig .tc .vmem S384x128 .f32) (harg6 : arg6.IsWhole) (arg7 : Memref sig .tc .vmem S1x128 .f32) (harg7 : arg7.IsWhole) (arg8 : Memref sig .tc .vmem S8192x24 .bf16) (harg8 : arg8.IsWhole) (arg9 : Memref sig .tc .vmem S128x512 .bf16) (harg9 : arg9.IsWhole) (arg10 : Memref sig .tc .vmem S512x384 .bf16) (harg10 : arg10.IsWhole) (arg11 : Memref sig .tc .vmem S384x128 .bf16) (harg11 : arg11.IsWhole) (hc0 : ¬cond0_0 i) (x0 : Vec F S8192x128 .f32) (x1 : Vec F S128x512 .f32) (x2 : Vec F S1x512 .f32) (x3 : Vec F S512x384 .f32) (x4 : Vec F S1x384 .f32) (x5 : Vec F S384x128 .f32) (x6 : Vec F S1x128 .f32) (xs0 : Vec F S128x512 .bf16) (xs1 : Vec F S512x384 .bf16) (xs2 : Vec F S384x128 .bf16) :
    out0_B_7 c i arg1 harg1 arg2 harg2 arg3 harg3 arg4 harg4 arg5 harg5 arg6 harg6 arg7 harg7 arg8 harg8 arg9 harg9 arg10 harg10 arg11 harg11 hc0 x0 x1 x2 x3 x4 x5 x6 xs0 xs1 xs2 = k0_pay4 x0 xs0 x2 xs1 x4 xs2 x6 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 x0 x1 x2 x3 x4 x5 x6 xs0 xs1 xs2)]
  unfold kernelRun0_B
  dsimp only
  rw [View.canon_unit_zero hz]
  simp only [View.readAt_eq_ld, harg1.read_unread, harg2.read_unread, harg3.read_unread, harg4.read_unread, harg5.read_unread, harg6.read_unread, harg7.read_unread, harg9.read_unread, harg10.read_unread, harg11.read_unread, View.ld_unit_zero (S := S8192x128) hz, View.ld_unit_zero (S := S128x512) hz, View.ld_unit_zero (S := S1x512) hz, View.ld_unit_zero (S := S512x384) hz, View.ld_unit_zero (S := S1x384) hz, View.ld_unit_zero (S := S384x128) hz, View.ld_unit_zero (S := S1x128) hz]

/-! ## The resident windows and the induction over the grid -/

variable (m : (ℓ : Loc nD τ sig) → Buf (Elt F) ℓ)

/-- The weight and bias windows never move: their block index is (0, 0) at every point (decided over the grid). -/
theorem resident_idx : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Window 1's one block is its whole array: the point's block is the array itself. -/
theorem resident1 (c : Dev nD) (t : Fin cfg0.N) :
    (iblk m c 1 t : Vec F S128x512 .f32) = m ((c : Thread nD τ).loc main_arg1) := by
  have e := resident_idx t
  funext j
  unfold iblk
  rw [View.read_apply]
  show V m c main_arg1 _ = m (c.tc.loc main_arg1) _
  unfold V
  congr 1
  funext a
  apply Fin.ext
  match a with
  | ⟨0, _⟩ => show win0_1.index t 0 * 128 + 1 * (j 0).val = (j 0).val; rw [e.1]; omega
  | ⟨1, _⟩ => show win0_1.index t 1 * 512 + 1 * (j 1).val = (j 1).val; rw [e.2.1]; omega

/-- Window 2's one block is its whole array: the point's block is the array itself. -/
theorem resident2 (c : Dev nD) (t : Fin cfg0.N) :
    (iblk m c 2 t : Vec F S1x512 .f32) = m ((c : Thread nD τ).loc main_arg2) := by
  have e := resident_idx t
  funext j
  unfold iblk
  rw [View.read_apply]
  show V m c main_arg2 _ = m (c.tc.loc main_arg2) _
  unfold V
  congr 1
  funext a
  apply Fin.ext
  match a with
  | ⟨0, _⟩ => show win0_2.index t 0 * 1 + 1 * (j 0).val = (j 0).val; rw [e.2.2.1]; omega
  | ⟨1, _⟩ => show win0_2.index t 1 * 512 + 1 * (j 1).val = (j 1).val; rw [e.2.2.2.1]; omega

/-- Window 3's one block is its whole array: the point's block is the array itself. -/
theorem resident3 (c : Dev nD) (t : Fin cfg0.N) :
    (iblk m c 3 t : Vec F S512x384 .f32) = m ((c : Thread nD τ).loc main_arg3) := by
  have e := resident_idx t
  funext j
  unfold iblk
  rw [View.read_apply]
  show V m c main_arg3 _ = m (c.tc.loc main_arg3) _
  unfold V
  congr 1
  funext a
  apply Fin.ext
  match a with
  | ⟨0, _⟩ => show win0_3.index t 0 * 512 + 1 * (j 0).val = (j 0).val; rw [e.2.2.2.2.1]; omega
  | ⟨1, _⟩ => show win0_3.index t 1 * 384 + 1 * (j 1).val = (j 1).val; rw [e.2.2.2.2.2.1]; omega

/-- Window 4's one block is its whole array: the point's block is the array itself. -/
theorem resident4 (c : Dev nD) (t : Fin cfg0.N) :
    (iblk m c 4 t : Vec F S1x384 .f32) = m ((c : Thread nD τ).loc main_arg4) := by
  have e := resident_idx t
  funext j
  unfold iblk
  rw [View.read_apply]
  show V m c main_arg4 _ = m (c.tc.loc main_arg4) _
  unfold V
  congr 1
  funext a
  apply Fin.ext
  match a with
  | ⟨0, _⟩ => show win0_4.index t 0 * 1 + 1 * (j 0).val = (j 0).val; rw [e.2.2.2.2.2.2.1]; omega
  | ⟨1, _⟩ => show win0_4.index t 1 * 384 + 1 * (j 1).val = (j 1).val; rw [e.2.2.2.2.2.2.2.1]; omega

/-- Window 5's one block is its whole array: the point's block is the array itself. -/
theorem resident5 (c : Dev nD) (t : Fin cfg0.N) :
    (iblk m c 5 t : Vec F S384x128 .f32) = m ((c : Thread nD τ).loc main_arg5) := by
  have e := resident_idx t
  funext j
  unfold iblk
  rw [View.read_apply]
  show V m c main_arg5 _ = m (c.tc.loc main_arg5) _
  unfold V
  congr 1
  funext a
  apply Fin.ext
  match a with
  | ⟨0, _⟩ => show win0_5.index t 0 * 384 + 1 * (j 0).val = (j 0).val; rw [e.2.2.2.2.2.2.2.2.1]; omega
  | ⟨1, _⟩ => show win0_5.index t 1 * 128 + 1 * (j 1).val = (j 1).val; rw [e.2.2.2.2.2.2.2.2.2.1]; omega

/-- Window 6's one block is its whole array: the point's block is the array itself. -/
theorem resident6 (c : Dev nD) (t : Fin cfg0.N) :
    (iblk m c 6 t : Vec F S1x128 .f32) = m ((c : Thread nD τ).loc main_arg6) := by
  have e := resident_idx t
  funext j
  unfold iblk
  rw [View.read_apply]
  show V m c main_arg6 _ = m (c.tc.loc main_arg6) _
  unfold V
  congr 1
  funext a
  apply Fin.ext
  match a with
  | ⟨0, _⟩ => show win0_6.index t 0 * 1 + 1 * (j 0).val = (j 0).val; rw [e.2.2.2.2.2.2.2.2.2.2.1]; omega
  | ⟨1, _⟩ => show win0_6.index t 1 * 128 + 1 * (j 1).val = (j 1).val; rw [e.2.2.2.2.2.2.2.2.2.2.2]; omega

/-- The three copies the scratch buffers hold after every point. -/
abbrev copy1 (c : Dev nD) : Vec F S128x512 .bf16 := k0_pay1 (m ((c : Thread nD τ).loc main_arg1))
abbrev copy2 (c : Dev nD) : Vec F S512x384 .bf16 := k0_pay2 (m ((c : Thread nD τ).loc main_arg3))
abbrev copy3 (c : Dev nD) : Vec F S384x128 .bf16 := k0_pay3 (m ((c : Thread nD τ).loc main_arg5))

/-- The output tile of point t: the body's arithmetic over the point's batch rows, the copies and the bias rows. -/
abbrev tile (c : Dev nD) (t : Fin cfg0.N) : Vec F S8192x24 .bf16 :=
  k0_pay4 (iblk m c 0 t) (copy1 m c) (m ((c : Thread nD τ).loc main_arg2)) (copy2 m c)
    (m ((c : Thread nD τ).loc main_arg4)) (copy3 m c) (m ((c : Thread nD τ).loc main_arg6))

/-- After every point the output's staging buffer holds the point's tile and the scratch buffers the three copies:
    the first point stores the copies and uses them, each later point finds them where the point before left them. -/
theorem outsAt_eq (c : Dev nD) : ∀ (n : ℕ) (h : n < cfg0.N),
    outsAt0 m c n h = (tile m c ⟨n, h⟩, copy1 m c, copy2 m c, copy3 m c)
  | 0, h => by
    rw [outsAt0_A m c ⟨0, h⟩ rfl, first_tile, first_scratch0, first_scratch1, first_scratch2,
      resident1, resident2, resident3, resident4, resident5, resident6]
  | n + 1, h => by
    have hN : cfg0.N = 8 := N_0
    have hB : ¬(⟨n + 1, h⟩ : Fin cfg0.N).val % 8 = 0 := by dsimp only; omega
    have ih : outsAt0 m c ((⟨n + 1, h⟩ : Fin cfg0.N).val - 1)
        (Nat.lt_of_le_of_lt (Nat.sub_le _ _) (⟨n + 1, h⟩ : Fin cfg0.N).isLt)
        = (tile m c ⟨n, Nat.lt_of_succ_lt h⟩, copy1 m c, copy2 m c, copy3 m c) := outsAt_eq c n (Nat.lt_of_succ_lt h)
    rw [outsAt0_B m c ⟨n + 1, h⟩ hB, later_tile, ih]
    unfold sout0_B_0 sout0_B_1 sout0_B_2
    dsimp only
    rw [resident2, resident4, resident6]

end Cert.KernelIdeal.Cases

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibDenseRow.lean ====
/-
  A dense layer of a graph network read at an entry, in the two spellings a program gives it.

  For a feature matrix x : [n, K], weights w : [K, N] and a bias row b : [1, N], entry (r, j) of the layer is
  (∑ k, x (r, k) · w (k, j)) + b (0, j). A vector program computes it as a matrix product into the zero
  accumulator plus the bias row spread over the n rows; a host program as a dot_general plus the bias row
  broadcast along axis 0. Both are that sum at every entry. The same holds for the bias step alone,
  x (r, j) + b (0, j). A bias row that is zero everywhere adds nothing, on every extended real.
  A vector [N] set under a unit axis by a reshape or by a broadcast is the same row.
-/
import Idealize.ShloMosaic.Lib.ValueIdx
import Idealize.ShloMosaic.Lib.ValueLayout
import Idealize.ShloMosaic.Lib.Pipeline.Value
import Idealize.ShloMosaic.PureOps.Ideal.Laws
import proofs.«158750_g2000001118044285_pallasbulk_215_30_alg».proof.Proof.LibContract

noncomputable section

open scoped BigOperators

namespace Idealize.ShloMosaic.GcnDense

open Idealize.ShloMosaic Idealize.ShloMosaic.ValueIdx

/-- Entry (r, j) of x · w + b for a bias row b : [1, N]. -/
def entry {n K N : ℕ} (x : (⟨2, ![n, K]⟩ : Shape).Idx → EReal) (w : (⟨2, ![K, N]⟩ : Shape).Idx → EReal)
    (b : (⟨2, ![1, N]⟩ : Shape).Idx → EReal) (r : Fin n) (j : Fin N) : EReal :=
  (∑ k : Fin K, x (ix2 r k) * w (ix2 k j)) + b (ix2 (0 : Fin 1) j)

/-- An entry of the layer depends on row r of x, column j of w and entry j of the bias only, whatever the row counts. -/
theorem entry_congr {n n' K N : ℕ} (x : (⟨2, ![n, K]⟩ : Shape).Idx → EReal) (w : (⟨2, ![K, N]⟩ : Shape).Idx → EReal)
    (b : (⟨2, ![1, N]⟩ : Shape).Idx → EReal) (x' : (⟨2, ![n', K]⟩ : Shape).Idx → EReal) (w' : (⟨2, ![K, N]⟩ : Shape).Idx → EReal)
    (b' : (⟨2, ![1, N]⟩ : Shape).Idx → EReal) (r : Fin n) (r' : Fin n') (j : Fin N)
    (h0 : ∀ k, x (ix2 r k) = x' (ix2 r' k)) (h1 : ∀ k, w (ix2 k j) = w' (ix2 k j))
    (h2 : b (ix2 (0 : Fin 1) j) = b' (ix2 (0 : Fin 1) j)) :
    entry x w b r j = entry x' w' b' r' j := by
  unfold entry
  rw [h2]
  exact congrArg (· + b' (ix2 (0 : Fin 1) j)) (Finset.sum_congr rfl fun k _ => by rw [h0 k, h1 k])

/-- A bias row broadcast along axis 0 reads, at (r, j), the row's entry j. -/
theorem bias_rows_apply {α : Type} {n N : ℕ} (h2 : (⟨2, ![1, N]⟩ : Shape).BroadcastsInDim ⟨2, ![n, N]⟩ ![0, 1])
    (b : (⟨2, ![1, N]⟩ : Shape).Idx → α) (r : Fin n) (j : Fin N) :
    broadcastInDim (⟨2, ![n, N]⟩ : Shape) ![0, 1] h2 b (ix2 r j) = b (ix2 (0 : Fin 1) j) := by
  refine broadcastInDim_apply _ h2 b (ix2 r j) (ix2 (0 : Fin 1) j) (fun x => ?_)
  match x with
  | ⟨0, _⟩ =>
    show 0 = if (1 : Nat) = 1 then 0 else r.val
    rw [if_pos rfl]
  | ⟨1, _⟩ =>
    show j.val = if N = 1 then 0 else j.val
    split_ifs with h
    · have := j.isLt; omega
    · rfl

/-- The layer as a vector program computes it. -/
theorem kernel_layer_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32)
    (hc : (⟨2, ![1, N]⟩ : Shape).ShapeCasts ⟨2, ![1, N]⟩) (hb : (⟨2, ![1, N]⟩ : Shape).Broadcasts ⟨2, ![n, N]⟩)
    (r : Fin n) (j : Fin N) :
    addf (matmul D prec x w (constant (F := Ideal) (⟨2, ![n, N]⟩ : Shape) .f32 0x00000000#32))
        (broadcastTo (⟨2, ![n, N]⟩ : Shape) (shapeCast (⟨2, ![1, N]⟩ : Shape) b hc) hb) (ix2 r j)
      = entry x w b r j := by
  rw [addf_apply, broadcastTo_1b_ab_apply, shapeCast_self]
  refine congrArg (· + b (ix2 (0 : Fin 1) j)) ?_
  refine (Ideal.matmul_constant_zero_apply D prec x w (ix2 r j)).trans ?_
  exact Contract2.sum_contr_eq_sum_fin D hr hs hlc hrc hl0 hr1 x w (ix2 r j)

/-- The layer as a host program computes it. -/
theorem host_layer_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32)
    (h2 : (⟨2, ![1, N]⟩ : Shape).BroadcastsInDim ⟨2, ![n, N]⟩ ![0, 1])
    (r : Fin n) (j : Fin N) :
    addf (Host.dotGeneral D prec x w) (broadcastInDim (⟨2, ![n, N]⟩ : Shape) ![0, 1] h2 b) (ix2 r j)
      = entry x w b r j := by
  rw [addf_apply, bias_rows_apply h2 b r j]
  refine congrArg (· + b (ix2 (0 : Fin 1) j)) ?_
  simp only [Host.dotGeneral]
  refine (Ideal.dotGeneral_apply D prec _ x w (ix2 r j)).trans ?_
  exact Contract2.sum_contr_eq_sum_fin D hr hs hlc hrc hl0 hr1 x w (ix2 r j)

/-- The bias step as a vector program computes it: x (r, j) + b (0, j). -/
theorem kernel_bias_apply {n N : ℕ}
    (x : FVec Ideal (⟨2, ![n, N]⟩ : Shape) .f32) (b : FVec Ideal (⟨2, ![1, N]⟩ : Shape) .f32)
    (hx : (⟨2, ![n, N]⟩ : Shape).ShapeCasts ⟨2, ![n, N]⟩)
    (hc : (⟨2, ![1, N]⟩ : Shape).ShapeCasts ⟨2, ![1, N]⟩) (hb : (⟨2, ![1, N]⟩ : Shape).Broadcasts ⟨2, ![n, N]⟩)
    (r : Fin n) (j : Fin N) :
    addf (shapeCast (⟨2, ![n, N]⟩ : Shape) x hx)
        (broadcastTo (⟨2, ![n, N]⟩ : Shape) (shapeCast (⟨2, ![1, N]⟩ : Shape) b hc) hb) (ix2 r j)
      = x (ix2 r j) + b (ix2 (0 : Fin 1) j) := by
  rw [addf_apply, broadcastTo_1b_ab_apply, shapeCast_self, shapeCast_self]

/-- The bias step as a host program computes it. -/
theorem host_bias_apply {n N : ℕ}
    (x : FVec Ideal (⟨2, ![n, N]⟩ : Shape) .f32) (b : FVec Ideal (⟨2, ![1, N]⟩ : Shape) .f32)
    (h2 : (⟨2, ![1, N]⟩ : Shape).BroadcastsInDim ⟨2, ![n, N]⟩ ![0, 1]) (r : Fin n) (j : Fin N) :
    addf x (broadcastInDim (⟨2, ![n, N]⟩ : Shape) ![0, 1] h2 b) (ix2 r j) = x (ix2 r j) + b (ix2 (0 : Fin 1) j) := by
  rw [addf_apply, bias_rows_apply h2 b r j]

/-- A vector set under a unit axis by a reshape is the vector set there by a broadcast. -/
theorem row_reshape_eq_broadcast {α : Type} {N : ℕ} (v : (⟨1, ![N]⟩ : Shape).Idx → α)
    (hc : (⟨1, ![N]⟩ : Shape).ShapeCasts ⟨2, ![1, N]⟩) (h1 : (⟨1, ![N]⟩ : Shape).BroadcastsInDim ⟨2, ![1, N]⟩ ![1]) :
    shapeCast (⟨2, ![1, N]⟩ : Shape) v hc = broadcastInDim (⟨2, ![1, N]⟩ : Shape) ![1] h1 v := by
  funext i
  obtain ⟨p, q, rfl⟩ : ∃ (p : Fin 1) (q : Fin N), i = ix2 p q := ⟨i 0, i 1, eq_ix2 i⟩
  have hp : p = 0 := Subsingleton.elim _ _
  subst hp
  rw [shapeCast_a_1a_apply]
  refine (broadcastInDim_apply _ h1 v (ix2 (0 : Fin 1) q) (ix1 q) (fun x => ?_)).symm
  match x with
  | ⟨0, _⟩ =>
    show q.val = if N = 1 then 0 else q.val
    split_ifs with h
    · have := q.isLt; omega
    · rfl

/-- Adding a bias row that is the zero constant, spread from a scalar to [N], set under a unit axis and broadcast
    down the rows, changes nothing: x + 0 = x on every extended real. -/
theorem add_zero_row {n N : ℕ} (x : FVec Ideal (⟨2, ![n, N]⟩ : Shape) .f32)
    (h0 : (⟨0, ![]⟩ : Shape).BroadcastsInDim ⟨1, ![N]⟩ ![])
    (hc : (⟨1, ![N]⟩ : Shape).ShapeCasts ⟨2, ![1, N]⟩)
    (h2 : (⟨2, ![1, N]⟩ : Shape).BroadcastsInDim ⟨2, ![n, N]⟩ ![0, 1]) :
    addf x (broadcastInDim (⟨2, ![n, N]⟩ : Shape) ![0, 1] h2
      (shapeCast (⟨2, ![1, N]⟩ : Shape)
        (broadcastInDim (⟨1, ![N]⟩ : Shape) ![] h0 (constant (F := Ideal) (⟨0, ![]⟩ : Shape) .f32 0x00000000#32)) hc)) = x := by
  funext i
  obtain ⟨r, j, rfl⟩ : ∃ (r : Fin n) (j : Fin N), i = ix2 r j := ⟨i 0, i 1, eq_ix2 i⟩
  rw [addf_apply, bias_rows_apply h2 _ r j, shapeCast_a_1a_apply]
  rw [broadcastInDim_apply _ h0 _ (ix1 j) (fun a => a.elim0) (fun a => a.elim0)]
  rw [constant_apply, Ideal.ofBits_zero_f32, add_zero]

end Idealize.ShloMosaic.GcnDense

end
-- ==== Proof.LibPerceptron.lean ====
/-
  A three-layer perceptron on the extended reals.

  For a batch x : [n, d0], weights w1 : [d0, d1], w2 : [d1, d2], w3 : [d2, d3] and bias rows b1, b2, b3,
  a hidden layer is the dense layer x · w + b followed by the rectifier max(·, 0), entry by entry, and the
  network's output at (r, j) is tanh of the third dense layer's entry over the two hidden layers. Row r of
  the output depends on row r of the batch only: that is what lets a batch be cut into row tiles of any
  height and each tile be computed on its own.
-/
import proofs.«158750_g2000001118044285_pallasbulk_215_30_alg».proof.Proof.LibDenseRow

noncomputable section

open scoped BigOperators

namespace Cert.Perceptron

open Idealize.ShloMosaic Idealize.ShloMosaic.ValueIdx Idealize.ShloMosaic.GcnDense

/-- The rectifier's threshold: the all-zero single-precision word as an extended real. -/
abbrev zeroWord : EReal := Ideal.ofBits .f32 0x00000000#32

/-- A hidden layer: the dense layer's entry, rectified. -/
def hidden {n K N : ℕ} (x : (⟨2, ![n, K]⟩ : Shape).Idx → EReal) (w : (⟨2, ![K, N]⟩ : Shape).Idx → EReal)
    (b : (⟨2, ![1, N]⟩ : Shape).Idx → EReal) : (⟨2, ![n, N]⟩ : Shape).Idx → EReal :=
  fun i => max (entry x w b (i 0) (i 1)) zeroWord

theorem hidden_ix2 {n K N : ℕ} (x : (⟨2, ![n, K]⟩ : Shape).Idx → EReal) (w : (⟨2, ![K, N]⟩ : Shape).Idx → EReal)
    (b : (⟨2, ![1, N]⟩ : Shape).Idx → EReal) (r : Fin n) (j : Fin N) :
    hidden x w b (ix2 r j) = max (entry x w b r j) zeroWord := rfl

/-- Row r of a hidden layer depends on row r of its input only, whatever the two row counts. -/
theorem hidden_congr {n n' K N : ℕ} (x : (⟨2, ![n, K]⟩ : Shape).Idx → EReal) (x' : (⟨2, ![n', K]⟩ : Shape).Idx → EReal)
    (w : (⟨2, ![K, N]⟩ : Shape).Idx → EReal) (b : (⟨2, ![1, N]⟩ : Shape).Idx → EReal) (r : Fin n) (r' : Fin n')
    (h : ∀ k, x (ix2 r k) = x' (ix2 r' k)) (j : Fin N) :
    hidden x w b (ix2 r j) = hidden x' w b (ix2 r' j) := by
  rw [hidden_ix2, hidden_ix2, entry_congr x w b x' w b r r' j h (fun _ => rfl) rfl]

/-- A dense layer as a vector program computes it — a matrix product into the zero accumulator plus the bias row
    spread over the rows — is, at (r, j), the layer's entry. -/
theorem dense_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32) (hb : (⟨2, ![1, N]⟩ : Shape).Broadcasts ⟨2, ![n, N]⟩)
    (r : Fin n) (j : Fin N) :
    addf (matmul D prec x w (constant (F := Ideal) (⟨2, ![n, N]⟩ : Shape) .f32 0x00000000#32))
        (broadcastTo (⟨2, ![n, N]⟩ : Shape) b hb) (ix2 r j)
      = entry x w b r j := by
  rw [addf_apply, broadcastTo_1b_ab_apply]
  refine congrArg (· + b (ix2 (0 : Fin 1) j)) ?_
  refine (Ideal.matmul_constant_zero_apply D prec x w (ix2 r j)).trans ?_
  exact Contract2.sum_contr_eq_sum_fin D hr hs hlc hrc hl0 hr1 x w (ix2 r j)

/-- The same followed by the rectifier against the zero word spread over the block: the hidden layer's entry. -/
theorem hidden_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32) (hb : (⟨2, ![1, N]⟩ : Shape).Broadcasts ⟨2, ![n, N]⟩)
    (r : Fin n) (j : Fin N) :
    maximumf (addf (matmul D prec x w (constant (F := Ideal) (⟨2, ![n, N]⟩ : Shape) .f32 0x00000000#32))
        (broadcastTo (⟨2, ![n, N]⟩ : Shape) b hb))
      (broadcast (⟨2, ![n, N]⟩ : Shape) (Scalar.ofBits (F := Ideal) .f32 0x00000000#32)) (ix2 r j)
      = hidden x w b (ix2 r j) := by
  rw [maximumf_apply, broadcast_apply, dense_apply D hr hs hlc hrc hl0 hr1 prec x w b hb r j, hidden_ix2]
  rfl

/-- The network's output at row r, column j. -/
def out {n d0 d1 d2 d3 : ℕ} (x : (⟨2, ![n, d0]⟩ : Shape).Idx → EReal)
    (w1 : (⟨2, ![d0, d1]⟩ : Shape).Idx → EReal) (b1 : (⟨2, ![1, d1]⟩ : Shape).Idx → EReal)
    (w2 : (⟨2, ![d1, d2]⟩ : Shape).Idx → EReal) (b2 : (⟨2, ![1, d2]⟩ : Shape).Idx → EReal)
    (w3 : (⟨2, ![d2, d3]⟩ : Shape).Idx → EReal) (b3 : (⟨2, ![1, d3]⟩ : Shape).Idx → EReal)
    (r : Fin n) (j : Fin d3) : EReal :=
  Ideal.tanh (entry (hidden (hidden x w1 b1) w2 b2) w3 b3 r j)

/-- Row r of the output depends on row r of the batch only. -/
theorem out_congr {n n' d0 d1 d2 d3 : ℕ} (x : (⟨2, ![n, d0]⟩ : Shape).Idx → EReal) (x' : (⟨2, ![n', d0]⟩ : Shape).Idx → EReal)
    (w1 : (⟨2, ![d0, d1]⟩ : Shape).Idx → EReal) (b1 : (⟨2, ![1, d1]⟩ : Shape).Idx → EReal)
    (w2 : (⟨2, ![d1, d2]⟩ : Shape).Idx → EReal) (b2 : (⟨2, ![1, d2]⟩ : Shape).Idx → EReal)
    (w3 : (⟨2, ![d2, d3]⟩ : Shape).Idx → EReal) (b3 : (⟨2, ![1, d3]⟩ : Shape).Idx → EReal)
    (r : Fin n) (r' : Fin n') (h : ∀ k, x (ix2 r k) = x' (ix2 r' k)) (j : Fin d3) :
    out x w1 b1 w2 b2 w3 b3 r j = out x' w1 b1 w2 b2 w3 b3 r' j := by
  unfold out
  refine congrArg Ideal.tanh (entry_congr _ _ _ _ _ _ r r' j (fun k => ?_) (fun _ => rfl) rfl)
  exact hidden_congr _ _ w2 b2 r r' (fun k' => hidden_congr x x' w1 b1 r r' h k') k

/-- The first a columns of the output, as one array over the whole batch. -/
def outCols {n d0 d1 d2 d3 a : ℕ} (ha : a ≤ d3) (x : (⟨2, ![n, d0]⟩ : Shape).Idx → EReal)
    (w1 : (⟨2, ![d0, d1]⟩ : Shape).Idx → EReal) (b1 : (⟨2, ![1, d1]⟩ : Shape).Idx → EReal)
    (w2 : (⟨2, ![d1, d2]⟩ : Shape).Idx → EReal) (b2 : (⟨2, ![1, d2]⟩ : Shape).Idx → EReal)
    (w3 : (⟨2, ![d2, d3]⟩ : Shape).Idx → EReal) (b3 : (⟨2, ![1, d3]⟩ : Shape).Idx → EReal) :
    (⟨2, ![n, a]⟩ : Shape).Idx → EReal :=
  fun i => out x w1 b1 w2 b2 w3 b3 (i 0) (Fin.castLE ha (i 1))

end Cert.Perceptron

end
-- ==== Proof.KernelPayload.lean ====
/-
  What the kernel's body computes, entry by entry, on the extended reals.

  The body keeps a half-precision copy of each weight matrix in scratch memory; on the extended reals a
  change of float format is the identity, so each copy is the matrix itself. The output tile's entry (r, j),
  for j among the first 24 columns, is the network's output at row r of the tile and column j: three dense
  layers with the rectifier between them, the first 24 columns cut out, then tanh (which acts entry by
  entry, so cutting the columns before or after it is the same).
-/
import proofs.«158750_g2000001118044285_pallasbulk_215_30_alg».proof.Proof.Gen.KernelIdeal.Skeleton
import proofs.«158750_g2000001118044285_pallasbulk_215_30_alg».proof.Proof.LibPerceptron

noncomputable section

namespace Cert.KernelIdeal.Payload

open Idealize.ShloMosaic Idealize.ShloMosaic.ValueIdx Idealize.ShloMosaic.GcnDense
open Cert.KernelIdeal Cert.KernelIdeal.Gen Cert.Perceptron

/-- The stored copy of the first weight matrix is the matrix. -/
theorem copy1_eq (v : Vec Ideal S128x512 .f32) : k0_pay1 (F := Ideal) v = v := by
  unfold k0_pay1; exact shapeCast_self _ _

/-- The stored copy of the second weight matrix is the matrix. -/
theorem copy2_eq (v : Vec Ideal S512x384 .f32) : k0_pay2 (F := Ideal) v = v := by
  unfold k0_pay2; exact shapeCast_self _ _

/-- The stored copy of the third weight matrix is the matrix. -/
theorem copy3_eq (v : Vec Ideal S384x128 .f32) : k0_pay3 (F := Ideal) v = v := by
  unfold k0_pay3; exact shapeCast_self _ _

/-- The output tile at (r, j) is the network's output at row r, column j, of the tile's rows. -/
theorem tile_apply (x : Vec Ideal S8192x128 .f32) (w1 : Vec Ideal S128x512 .bf16) (b1 : Vec Ideal S1x512 .f32)
    (w2 : Vec Ideal S512x384 .bf16) (b2 : Vec Ideal S1x384 .f32) (w3 : Vec Ideal S384x128 .bf16) (b3 : Vec Ideal S1x128 .f32)
    (r : Fin 8192) (j : Fin 24) :
    k0_pay4 (F := Ideal) x w1 b1 w2 b2 w3 b3 (ix2 r j)
      = out x w1 b1 w2 b2 w3 b3 r (Fin.castLE (by decide) j) := by
  unfold k0_pay4 out
  refine congrArg Ideal.tanh ?_
  refine (slice2_axis1_apply (n0 := 8192) (n1 := 128) (m := 24) 0 _ _ r j (Fin.castLE (by decide) j)
    (Nat.zero_add _).symm).trans ?_
  refine (dense_apply dot_S8192x384_S384x128_S8192x128_1_0_0_1_n_n rfl rfl rfl rfl (fun _ _ => rfl) (fun _ _ => rfl)
    none _ w3 b3 _ r _).trans ?_
  refine entry_congr _ _ _ _ _ _ r r _ (fun k => ?_) (fun _ => rfl) rfl
  refine (hidden_apply dot_S8192x512_S512x384_S8192x384_1_0_0_1_n_n rfl rfl rfl rfl (fun _ _ => rfl) (fun _ _ => rfl)
    none _ w2 b2 _ r k).trans ?_
  refine hidden_congr _ _ w2 b2 r r (fun k' => ?_) k
  exact hidden_apply dot_S8192x128_S128x512_S8192x512_1_0_0_1_n_n rfl rfl rfl rfl (fun _ _ => rfl) (fun _ _ => rfl)
    none _ w1 b1 _ r k'

/-- The same with the weight matrices read through their stored copies. -/
theorem tile_of_copies (x : Vec Ideal S8192x128 .f32) (w1 : Vec Ideal S128x512 .f32) (b1 : Vec Ideal S1x512 .f32)
    (w2 : Vec Ideal S512x384 .f32) (b2 : Vec Ideal S1x384 .f32) (w3 : Vec Ideal S384x128 .f32) (b3 : Vec Ideal S1x128 .f32)
    (r : Fin 8192) (j : Fin 24) :
    k0_pay4 (F := Ideal) x (k0_pay1 w1) b1 (k0_pay2 w2) b2 (k0_pay3 w3) b3 (ix2 r j)
      = out x w1 b1 w2 b2 w3 b3 r (Fin.castLE (by decide) j) :=
  (tile_apply x (k0_pay1 w1) b1 (k0_pay2 w2) b2 (k0_pay3 w3) b3 r j).trans (by rw [copy1_eq, copy2_eq, copy3_eq])

end Cert.KernelIdeal.Payload

end
-- ==== Proof.KernelValue.lean ====
/-
  The kernel's result as one function of its arguments, on the extended reals.

  The batch is cut into eight tiles of 8192 rows; point t reads rows 8192·t … 8192·t + 8191 and writes the
  same rows of the [65536, 24] result. Its tile is the network's output on those rows (the three weight copies
  being the matrices, and an output row depending on the same batch row only), so every tile is the
  restriction of ONE array: the first 24 output columns of the network over the whole batch. The eight tiles
  cover the result (row i lies in tile i / 8192), and the host's closing change of float format is the
  identity on the extended reals.
-/
import proofs.«158750_g2000001118044285_pallasbulk_215_30_alg».proof.Proof.KernelCases
import proofs.«158750_g2000001118044285_pallasbulk_215_30_alg».proof.Proof.KernelPayload

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.Perceptron
open Idealize.ShloMosaic.ValueIdx

variable (m : (ℓ : Loc nD τ sig) → Buf (Elt Ideal) ℓ) (ρ : Dev nD → PrngReg)

/-- The first 24 output columns of the network over the whole batch, from the argument arrays as launched. -/
abbrev net (c : Dev nD) : S65536x24.Idx → EReal :=
  outCols (a := 24) (d3 := 128) (by decide)
    (m ((c : Thread nD τ).loc main_arg0) : S65536x128.Idx → EReal) (m ((c : Thread nD τ).loc main_arg1) : S128x512.Idx → EReal)
    (m ((c : Thread nD τ).loc main_arg2) : S1x512.Idx → EReal) (m ((c : Thread nD τ).loc main_arg3) : S512x384.Idx → EReal)
    (m ((c : Thread nD τ).loc main_arg4) : S1x384.Idx → EReal) (m ((c : Thread nD τ).loc main_arg5) : S384x128.Idx → EReal)
    (m ((c : Thread nD τ).loc main_arg6) : S1x128.Idx → EReal)

/-- The batch window and the result window move together: block (t, 0) at point t (decided over the grid). -/
theorem tile_idx : ∀ t : Fin cfg0.N, win0_0.index t (0 : Fin 2) = t.val ∧ win0_0.index t (1 : Fin 2) = 0
    ∧ win0_7.index t (0 : Fin 2) = t.val ∧ win0_7.index t (1 : Fin 2) = 0 :=
  (by decide +kernel : ∀ t : Fin grid0.N, _)

/-- Row r of point t's batch tile is row 8192·t + r of the batch. -/
theorem rows_apply (c : Dev nD) (t : Fin cfg0.N) (r : Fin 8192) (k : Fin 128) (i : Fin 65536)
    (hi : i.val = t.val * 8192 + r.val) :
    (iblk m c 0 t : Vec Ideal S8192x128 .f32) (ix2 r k) = m ((c : Thread nD τ).loc main_arg0) (ix2 i k) := by
  have e := tile_idx t
  unfold iblk
  rw [View.read_apply]
  show V m c main_arg0 _ = m (c.tc.loc main_arg0) _
  unfold V
  congr 1
  funext a
  apply Fin.ext
  match a with
  | ⟨0, _⟩ => show win0_0.index t 0 * 8192 + 1 * r.val = i.val; rw [e.1]; omega
  | ⟨1, _⟩ => show win0_0.index t 1 * 128 + 1 * k.val = k.val; rw [e.2.1]; omega

/-- What point t writes back is block t of the network's output array. -/
theorem flushed_eq (c : Dev nD) (t : Fin cfg0.N) :
    (dats m 0 c).flushed 7 t = ((cfg0.win 7).blk t).view.read (Elt Ideal) (net m c) := by
  show (cfg0.win 7).cut (grid0.coords t) ((dats m 0 c).after 7 t) = _
  rw [after0_7, Cases.outsAt_eq]
  have e := tile_idx t
  have hN : cfg0.N = 8 := N_0
  have ht : t.val < 8 := lt_of_lt_of_eq t.isLt hN
  funext y
  obtain ⟨r, j, rfl⟩ : ∃ (r : Fin 8192) (j : Fin 24), y = ix2 r j := ⟨y 0, y 1, eq_ix2 y⟩
  refine (Payload.tile_of_copies _ _ _ _ _ _ _ r j).trans ?_
  rw [View.read_apply]
  have hrow : ((((cfg0.win 7).blk t).view.emb (ix2 r j)) 0 : Fin 65536).val = t.val * 8192 + r.val := by
    show win0_7.index t 0 * 8192 + 1 * r.val = _; rw [e.2.2.1]; omega
  have hcol : ((((cfg0.win 7).blk t).view.emb (ix2 r j)) 1 : Fin 24) = j := Fin.ext (by
    show win0_7.index t 1 * 24 + 1 * j.val = _; rw [e.2.2.2]; omega)
  show out _ _ _ _ _ _ _ r _ = out _ _ _ _ _ _ _ ((((cfg0.win 7).blk t).view.emb (ix2 r j)) 0) (Fin.castLE _ ((((cfg0.win 7).blk t).view.emb (ix2 r j)) 1))
  rw [hcol]
  exact out_congr _ _ _ _ _ _ _ _ r _ (fun k => rows_apply m c t r k _ hrow) _

/-- An index of the result is in point t's block iff each coordinate is in the block's range on its axis. -/
theorem mem_blk (t : Fin cfg0.N) (i : S65536x24.Idx) :
    i ∈ ((cfg0.win 7).blk t).view.set ↔ ∀ a : Fin 2, win0_7.index t a * S8192x24.size a ≤ (i a).val ∧ (i a).val < win0_7.index t a * S8192x24.size a + S8192x24.size a := by
  show i ∈ ((View.whole main_v0).slice (win0_7.rect t)).set ↔ _
  rw [View.set_slice_whole, Rect.mem_set_unit]
  exact Iff.rfl

/-- Row i of the result lies in the block of point i / 8192. -/
theorem cover (i : S65536x24.Idx) : ∃ t : Fin cfg0.N, (cfg0.win 7).flush t = true ∧ i ∈ ((cfg0.win 7).blk t).view.set := by
  have hN : cfg0.N = 8 := N_0
  have hi0 : (i 0).val < 65536 := (i 0).isLt
  have hi1 : (i 1).val < 24 := (i 1).isLt
  have hq : (i 0).val / 8192 < cfg0.N := by rw [hN]; omega
  refine ⟨⟨(i 0).val / 8192, hq⟩, flush0_7 _, ?_⟩
  rw [mem_blk]
  have e := tile_idx ⟨(i 0).val / 8192, hq⟩
  intro a
  match a with
  | ⟨0, _⟩ =>
    show win0_7.index ⟨(i 0).val / 8192, hq⟩ 0 * 8192 ≤ (i 0).val ∧ (i 0).val < win0_7.index ⟨(i 0).val / 8192, hq⟩ 0 * 8192 + 8192
    rw [e.2.2.1]; dsimp only; omega
  | ⟨1, _⟩ =>
    show win0_7.index ⟨(i 0).val / 8192, hq⟩ 1 * 24 ≤ (i 1).val ∧ (i 1).val < win0_7.index ⟨(i 0).val / 8192, hq⟩ 1 * 24 + 24
    rw [e.2.2.2]; omega

/-- The result array of the kernel launch after the run is the network's output array. -/
theorem final (c : Dev nD) : (dats m 0 c).arrAt 7 cfg0.N = net m c :=
  (dats m 0 c).arrAt_eq_of_cover 7 (net m c) (fun t _ => flushed_eq m c t) cover

/-- The host's closing change of float format leaves the same extended reals. -/
theorem tail_eq (c : Dev nD) :
    Pipeline.afterTail₀ cfgs (dats m) 0 (V0 m) [hostOps1] c main_v1 = net m c := by
  unfold Pipeline.afterTail₀
  show StableHlo.after hostOps1 _ (Proc.devRef .tc main_v1) = _
  after_results
  rw [show Pipeline.withArrays (cfgs 0).spec c (V0 m c) (fun w => (dats m 0 c).arrAt w (cfgs 0).N) (Proc.tc.devRef main_v0)
      = net m c from (Pipeline.withArrays_arr spec0 launch0.win.arr_inj c _ _ 7).trans (final m c)]
  rfl

/-- The run, read: the result at the network's output array, the arguments unchanged. -/
theorem run : θ_run defs (onTc (τ := τ) (main (F := Ideal))) ⟨m, fun _ => 0, ρ⟩ fun r => ∀ c : Dev nD,
      r.2.mem ((c : Thread nD τ).loc main_v1) = net m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).2 main_v1 (Pipeline.mem_restRefs_of main_v1 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.Result

end
-- ==== Proof.RefPayload.lean ====
/-
  What the reference's body computes, entry by entry, on the extended reals: its output tile's entry (r, j)
  is the network's output at row r of the tile and column j — three dense layers with the rectifier between
  them, then tanh, over all 128 columns.
-/
import proofs.«158750_g2000001118044285_pallasbulk_215_30_alg».proof.Proof.Gen.ReferenceIdeal.Skeleton
import proofs.«158750_g2000001118044285_pallasbulk_215_30_alg».proof.Proof.LibPerceptron

noncomputable section

namespace Cert.ReferenceIdeal.Payload

open Idealize.ShloMosaic Idealize.ShloMosaic.ValueIdx Idealize.ShloMosaic.GcnDense
open Cert.ReferenceIdeal Cert.ReferenceIdeal.Gen Cert.Perceptron

/-- The output tile at (r, j) is the network's output at row r, column j, of the tile's rows. -/
theorem tile_apply (x : Vec Ideal S256x128 .f32) (w1 : Vec Ideal S128x512 .f32) (b1 : Vec Ideal S1x512 .f32)
    (w2 : Vec Ideal S512x384 .f32) (b2 : Vec Ideal S1x384 .f32) (w3 : Vec Ideal S384x128 .f32) (b3 : Vec Ideal S1x128 .f32)
    (r : Fin 256) (j : Fin 128) :
    k0_pay1 (F := Ideal) x w1 b1 w2 b2 w3 b3 (ix2 r j) = out x w1 b1 w2 b2 w3 b3 r j := by
  unfold k0_pay1 out
  refine congrArg Ideal.tanh ?_
  refine (dense_apply dot_S256x384_S384x128_S256x128_1_0_0_1_n_n rfl rfl rfl rfl (fun _ _ => rfl) (fun _ _ => rfl)
    none _ w3 b3 _ r j).trans ?_
  refine entry_congr _ _ _ _ _ _ r r _ (fun k => ?_) (fun _ => rfl) rfl
  refine (hidden_apply dot_S256x512_S512x384_S256x384_1_0_0_1_n_n rfl rfl rfl rfl (fun _ _ => rfl) (fun _ _ => rfl)
    none _ w2 b2 _ r k).trans ?_
  refine hidden_congr _ _ w2 b2 r r (fun k' => ?_) k
  refine (hidden_apply dot_S256x128_S128x512_S256x512_1_0_0_1_n_n rfl rfl rfl rfl (fun _ _ => rfl) (fun _ _ => rfl)
    none _ w1 b1 _ r k').trans ?_
  rw [shapeCast_self]

end Cert.ReferenceIdeal.Payload

end
-- ==== Proof.RefValue.lean ====
/-
  The reference's result as one function of its arguments, on the extended reals.

  The host first pads the batch by nothing (zero low, high and interior widths: the batch itself), the kernel
  launch cuts it into 256 tiles of 256 rows and writes, at point t, the network's output on rows 256·t … 256·t + 255
  over all 128 columns; the tiles are restrictions of ONE [65536, 128] array and cover it; the host then keeps
  the first 24 columns.
-/
import proofs.«158750_g2000001118044285_pallasbulk_215_30_alg».proof.Proof.Gen.ReferenceIdeal.Frame
import proofs.«158750_g2000001118044285_pallasbulk_215_30_alg».proof.Proof.RefPayload
import Idealize.ShloMosaic.Lib.Pipeline.Value
import Idealize.ShloMosaic.Lib.KernelVsHost
import Idealize.ShloMosaic.Lib.Tactic

set_option maxRecDepth 16384

noncomputable section

open Idealize.ShloMosaic Idealize.ShloMosaic.TcCoe Idealize.SL.Sem
open Idealize.ShloMosaic.Pipeline (Dat)

namespace Cert.ReferenceIdeal.Result

open Cert.ReferenceIdeal Cert.ReferenceIdeal.Gen Cert.Perceptron
open Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The body's one covering store leaves its payload over the loaded blocks. -/
theorem tile_eq (x0 : Vec Ideal S256x128 .f32) (x1 : Vec Ideal S128x512 .f32) (x2 : Vec Ideal S1x512 .f32)
    (x3 : Vec Ideal S512x384 .f32) (x4 : Vec Ideal S1x384 .f32) (x5 : Vec Ideal S384x128 .f32) (x6 : Vec Ideal S1x128 .f32) :
    out0_7 x0 x1 x2 x3 x4 x5 x6 = k0_pay1 x0 x1 x2 x3 x4 x5 x6 := by
  unfold out0_7
  rw [View.canon_unit_zero hz]
  simp only [View.ld_unit_zero (S := S256x128) hz, View.ld_unit_zero (S := S128x512) hz, View.ld_unit_zero (S := S1x512) hz,
    View.ld_unit_zero (S := S512x384) hz, View.ld_unit_zero (S := S1x384) hz, View.ld_unit_zero (S := S384x128) hz,
    View.ld_unit_zero (S := S1x128) hz]

/-- The batch as the kernel launch finds it: padding by widths zero changes nothing. -/
theorem batch_eq (c : Dev nD) :
    (V m c main_call0_v0 : S65536x128.Idx → EReal) = m ((c : Thread nD τ).loc main_arg0) := by
  have e : (V m c main_call0_v0 : S65536x128.Idx → EReal)
      = pad S65536x128 ![0, 0] ![0, 0] ![0, 0] (m ((c : Thread nD τ).loc main_arg0))
          (sitofp (F := Ideal) .f32 (constantI S_ 32 0#32)) pads_S65536x128_S65536x128_000_000 h_S_ := by
    show StableHlo.after hostOps0 (fun b => m (c, b)) (Proc.devRef .tc main_call0_v0) = _
    after_results
    rfl
  rw [e]
  funext i
  refine pad_apply_of_inside _ _ _ _ _ _ _ i i (fun a => ?_)
  match a with
  | ⟨0, _⟩ => show (i 0).val = 0 + (i 0).val * (0 + 1); omega
  | ⟨1, _⟩ => show (i 1).val = 0 + (i 1).val * (0 + 1); omega

/-- The network's output over the whole batch, all 128 columns, from the arrays as the kernel launch finds them. -/
abbrev netV (c : Dev nD) : S65536x128.Idx → EReal := fun i =>
  out (V m c main_call0_v0 : S65536x128.Idx → EReal) (V m c main_arg1 : S128x512.Idx → EReal)
    (V m c main_arg2 : S1x512.Idx → EReal) (V m c main_arg3 : S512x384.Idx → EReal)
    (V m c main_arg4 : S1x384.Idx → EReal) (V m c main_arg5 : S384x128.Idx → EReal)
    (V m c main_arg6 : S1x128.Idx → EReal) (i 0) (i 1)

/-- The first 24 output columns of the network over the whole batch, from the argument arrays as launched. -/
abbrev net (c : Dev nD) : S65536x24.Idx → EReal :=
  outCols (a := 24) (d3 := 128) (by decide)
    (m ((c : Thread nD τ).loc main_arg0) : S65536x128.Idx → EReal) (m ((c : Thread nD τ).loc main_arg1) : S128x512.Idx → EReal)
    (m ((c : Thread nD τ).loc main_arg2) : S1x512.Idx → EReal) (m ((c : Thread nD τ).loc main_arg3) : S512x384.Idx → EReal)
    (m ((c : Thread nD τ).loc main_arg4) : S1x384.Idx → EReal) (m ((c : Thread nD τ).loc main_arg5) : S384x128.Idx → EReal)
    (m ((c : Thread nD τ).loc main_arg6) : S1x128.Idx → EReal)

/-- The batch window and the result window move together, block (t, 0) at point t; the weight and bias windows
    stay at block (0, 0) (decided over the grid). -/
theorem tile_idx : ∀ t : Fin cfg0.N, win0_0.index t (0 : Fin 2) = t.val ∧ win0_0.index t (1 : Fin 2) = 0
    ∧ win0_7.index t (0 : Fin 2) = t.val ∧ win0_7.index t (1 : Fin 2) = 0 :=
  (by decide +kernel : ∀ t : Fin grid0.N, _)

theorem resident_idx : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Window 1's one block is its whole array. -/
theorem resident1 (c : Dev nD) (t : Fin cfg0.N) :
    (iblk m c 1 t : Vec Ideal S128x512 .f32) = V m c main_arg1 := by
  have e := resident_idx t
  funext j
  unfold iblk
  rw [View.read_apply]
  show V m c main_arg1 _ = V m c main_arg1 _
  congr 1
  funext a
  apply Fin.ext
  match a with
  | ⟨0, _⟩ => show win0_1.index t 0 * 128 + 1 * (j 0).val = (j 0).val; rw [e.1]; omega
  | ⟨1, _⟩ => show win0_1.index t 1 * 512 + 1 * (j 1).val = (j 1).val; rw [e.2.1]; omega

/-- Window 2's one block is its whole array. -/
theorem resident2 (c : Dev nD) (t : Fin cfg0.N) :
    (iblk m c 2 t : Vec Ideal S1x512 .f32) = V m c main_arg2 := by
  have e := resident_idx t
  funext j
  unfold iblk
  rw [View.read_apply]
  show V m c main_arg2 _ = V m c main_arg2 _
  congr 1
  funext a
  apply Fin.ext
  match a with
  | ⟨0, _⟩ => show win0_2.index t 0 * 1 + 1 * (j 0).val = (j 0).val; rw [e.2.2.1]; omega
  | ⟨1, _⟩ => show win0_2.index t 1 * 512 + 1 * (j 1).val = (j 1).val; rw [e.2.2.2.1]; omega

/-- Window 3's one block is its whole array. -/
theorem resident3 (c : Dev nD) (t : Fin cfg0.N) :
    (iblk m c 3 t : Vec Ideal S512x384 .f32) = V m c main_arg3 := by
  have e := resident_idx t
  funext j
  unfold iblk
  rw [View.read_apply]
  show V m c main_arg3 _ = V m c main_arg3 _
  congr 1
  funext a
  apply Fin.ext
  match a with
  | ⟨0, _⟩ => show win0_3.index t 0 * 512 + 1 * (j 0).val = (j 0).val; rw [e.2.2.2.2.1]; omega
  | ⟨1, _⟩ => show win0_3.index t 1 * 384 + 1 * (j 1).val = (j 1).val; rw [e.2.2.2.2.2.1]; omega

/-- Window 4's one block is its whole array. -/
theorem resident4 (c : Dev nD) (t : Fin cfg0.N) :
    (iblk m c 4 t : Vec Ideal S1x384 .f32) = V m c main_arg4 := by
  have e := resident_idx t
  funext j
  unfold iblk
  rw [View.read_apply]
  show V m c main_arg4 _ = V m c main_arg4 _
  congr 1
  funext a
  apply Fin.ext
  match a with
  | ⟨0, _⟩ => show win0_4.index t 0 * 1 + 1 * (j 0).val = (j 0).val; rw [e.2.2.2.2.2.2.1]; omega
  | ⟨1, _⟩ => show win0_4.index t 1 * 384 + 1 * (j 1).val = (j 1).val; rw [e.2.2.2.2.2.2.2.1]; omega

/-- Window 5's one block is its whole array. -/
theorem resident5 (c : Dev nD) (t : Fin cfg0.N) :
    (iblk m c 5 t : Vec Ideal S384x128 .f32) = V m c main_arg5 := by
  have e := resident_idx t
  funext j
  unfold iblk
  rw [View.read_apply]
  show V m c main_arg5 _ = V m c main_arg5 _
  congr 1
  funext a
  apply Fin.ext
  match a with
  | ⟨0, _⟩ => show win0_5.index t 0 * 384 + 1 * (j 0).val = (j 0).val; rw [e.2.2.2.2.2.2.2.2.1]; omega
  | ⟨1, _⟩ => show win0_5.index t 1 * 128 + 1 * (j 1).val = (j 1).val; rw [e.2.2.2.2.2.2.2.2.2.1]; omega

/-- Window 6's one block is its whole array. -/
theorem resident6 (c : Dev nD) (t : Fin cfg0.N) :
    (iblk m c 6 t : Vec Ideal S1x128 .f32) = V m c main_arg6 := by
  have e := resident_idx t
  funext j
  unfold iblk
  rw [View.read_apply]
  show V m c main_arg6 _ = V m c main_arg6 _
  congr 1
  funext a
  apply Fin.ext
  match a with
  | ⟨0, _⟩ => show win0_6.index t 0 * 1 + 1 * (j 0).val = (j 0).val; rw [e.2.2.2.2.2.2.2.2.2.2.1]; omega
  | ⟨1, _⟩ => show win0_6.index t 1 * 128 + 1 * (j 1).val = (j 1).val; rw [e.2.2.2.2.2.2.2.2.2.2.2]; omega

/-- Row r of point t's batch tile is row 256·t + r of the batch. -/
theorem rows_apply (c : Dev nD) (t : Fin cfg0.N) (r : Fin 256) (k : Fin 128) (i : Fin 65536)
    (hi : i.val = t.val * 256 + r.val) :
    (iblk m c 0 t : Vec Ideal S256x128 .f32) (ix2 r k) = (V m c main_call0_v0 : S65536x128.Idx → EReal) (ix2 i k) := by
  have e := tile_idx t
  unfold iblk
  rw [View.read_apply]
  show V m c main_call0_v0 _ = V m c main_call0_v0 _
  congr 1
  funext a
  apply Fin.ext
  match a with
  | ⟨0, _⟩ => show win0_0.index t 0 * 256 + 1 * r.val = i.val; rw [e.1]; omega
  | ⟨1, _⟩ => show win0_0.index t 1 * 128 + 1 * k.val = k.val; rw [e.2.1]; omega

/-- What point t writes back is block t of the network's output array. -/
theorem flushed_eq (c : Dev nD) (t : Fin cfg0.N) :
    (dats m 0 c).flushed 7 t = ((cfg0.win 7).blk t).view.read (Elt Ideal) (netV m c) := by
  show (cfg0.win 7).cut (grid0.coords t) ((dats m 0 c).after 7 t) = _
  rw [after0_7, tile_eq, resident1, resident2, resident3, resident4, resident5, resident6]
  have e := tile_idx t
  have hN : cfg0.N = 256 := N_0
  have ht : t.val < 256 := lt_of_lt_of_eq t.isLt hN
  funext y
  obtain ⟨r, j, rfl⟩ : ∃ (r : Fin 256) (j : Fin 128), y = ix2 r j := ⟨y 0, y 1, eq_ix2 y⟩
  refine (Payload.tile_apply _ _ _ _ _ _ _ r j).trans ?_
  rw [View.read_apply]
  have hrow : ((((cfg0.win 7).blk t).view.emb (ix2 r j)) 0 : Fin 65536).val = t.val * 256 + r.val := by
    show win0_7.index t 0 * 256 + 1 * r.val = _; rw [e.2.2.1]; omega
  have hcol : ((((cfg0.win 7).blk t).view.emb (ix2 r j)) 1 : Fin 128) = j := Fin.ext (by
    show win0_7.index t 1 * 128 + 1 * j.val = _; rw [e.2.2.2]; omega)
  show out _ _ _ _ _ _ _ r j = out _ _ _ _ _ _ _ ((((cfg0.win 7).blk t).view.emb (ix2 r j)) 0) ((((cfg0.win 7).blk t).view.emb (ix2 r j)) 1)
  rw [hcol]
  exact out_congr _ _ _ _ _ _ _ _ r _ (fun k => rows_apply m c t r k _ hrow) _

/-- An index of the result is in point t's block iff each coordinate is in the block's range on its axis. -/
theorem mem_blk (t : Fin cfg0.N) (i : S65536x128.Idx) :
    i ∈ ((cfg0.win 7).blk t).view.set ↔ ∀ a : Fin 2, win0_7.index t a * S256x128.size a ≤ (i a).val ∧ (i a).val < win0_7.index t a * S256x128.size a + S256x128.size a := by
  show i ∈ ((View.whole main_call0_v1).slice (win0_7.rect t)).set ↔ _
  rw [View.set_slice_whole, Rect.mem_set_unit]
  exact Iff.rfl

/-- Row i of the result lies in the block of point i / 256. -/
theorem cover (i : S65536x128.Idx) : ∃ t : Fin cfg0.N, (cfg0.win 7).flush t = true ∧ i ∈ ((cfg0.win 7).blk t).view.set := by
  have hN : cfg0.N = 256 := N_0
  have hi0 : (i 0).val < 65536 := (i 0).isLt
  have hi1 : (i 1).val < 128 := (i 1).isLt
  have hq : (i 0).val / 256 < cfg0.N := by rw [hN]; omega
  refine ⟨⟨(i 0).val / 256, hq⟩, flush0_7 _, ?_⟩
  rw [mem_blk]
  have e := tile_idx ⟨(i 0).val / 256, hq⟩
  intro a
  match a with
  | ⟨0, _⟩ =>
    show win0_7.index ⟨(i 0).val / 256, hq⟩ 0 * 256 ≤ (i 0).val ∧ (i 0).val < win0_7.index ⟨(i 0).val / 256, hq⟩ 0 * 256 + 256
    rw [e.2.2.1]; dsimp only; omega
  | ⟨1, _⟩ =>
    show win0_7.index ⟨(i 0).val / 256, hq⟩ 1 * 128 ≤ (i 1).val ∧ (i 1).val < win0_7.index ⟨(i 0).val / 256, hq⟩ 1 * 128 + 128
    rw [e.2.2.2]; omega

/-- The result array of the kernel launch after the run is the network's output array. -/
theorem final (c : Dev nD) : (dats m 0 c).arrAt 7 cfg0.N = netV m c :=
  (dats m 0 c).arrAt_eq_of_cover 7 (netV m c) (fun t _ => flushed_eq m c t) cover

/-- The host keeps the first 24 columns: the network's first 24 output columns from the arguments as launched. -/
theorem tail_eq (c : Dev nD) :
    Pipeline.afterTail₀ cfgs (dats m) 0 (V0 m) [hostOps1] c main_v0 = net m c := by
  unfold Pipeline.afterTail₀
  show StableHlo.after hostOps1 _ (Proc.devRef .tc main_v0) = _
  after_results
  rw [show Pipeline.withArrays (cfgs 0).spec c (V0 m c) (fun w => (dats m 0 c).arrAt w (cfgs 0).N) (Proc.tc.devRef main_call0_v1)
      = netV m c from (Pipeline.withArrays_arr spec0 launch0.win.arr_inj c _ _ 7).trans (final m c)]
  funext i
  obtain ⟨r, j, rfl⟩ : ∃ (r : Fin 65536) (j : Fin 24), i = ix2 r j := ⟨i 0, i 1, eq_ix2 i⟩
  show extractStridedSlice S65536x24 ![0, 0] (netV m c) slices_S65536x128_S65536x24_0_0 (ix2 r j) = _
  refine (slice2_axis1_apply (n0 := 65536) (n1 := 128) (m := 24) 0 _ _ r j (Fin.castLE (by decide) j) (Nat.zero_add _).symm).trans ?_
  show out _ _ _ _ _ _ _ r (Fin.castLE _ j) = out _ _ _ _ _ _ _ r (Fin.castLE _ j)
  rw [batch_eq, V_main_arg1, V_main_arg2, V_main_arg3, V_main_arg4, V_main_arg5, V_main_arg6]

/-- The run, read: the result at the network's first 24 output columns, the arguments unchanged. -/
theorem run : θ_run defs (onTc (τ := τ) (main (F := Ideal))) ⟨m, fun _ => 0, ρ⟩ fun r => ∀ c : Dev nD,
      r.2.mem ((c : Thread nD τ).loc main_v0) = net m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).2 main_v0 (Pipeline.mem_restRefs_of main_v0 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.ReferenceIdeal.Result

end
-- ==== Proof.lean ====
/-
  A three-layer perceptron, tanh(relu(relu(x·W1 + b1)·W2 + b2)·W3 + b3), restricted to its first 24 output
  columns, computed two ways over a batch of 65536 rows.

  The kernel cuts the batch into 8 tiles of 8192 rows, keeps half-precision copies of the three weight
  matrices in scratch memory (stored at the first grid point, reused at the later ones), multiplies in half
  precision, cuts the first 24 columns out before tanh and writes a [65536, 24] half-precision result that
  the host widens. The reference cuts the batch into 256 tiles of 256 rows, works in single precision over
  all 128 columns and lets the host keep the first 24.

  On the extended reals a change of float format is the identity, a matrix product into a zero accumulator is
  the plain sum over the contracted axis, and tanh and the rectifier act entry by entry; an output row depends
  on the same batch row only, so neither tiling matters. Both programs therefore end with the same array,
  entry (i, j) ↦ tanh((∑ relu((∑ relu((∑ x(i,·)·W1) + b1)·W2) + b2)·W3)(j) + b3(j)) for j < 24. No step moves a
  factor across a sum or cancels anything, so the finiteness of the inputs is never used.

  The three frames are the generated ones; the ideal pass rewrote nothing, so the kernel's idealization is
  its own text read on the extended reals.
-/
import proofs.«158750_g2000001118044285_pallasbulk_215_30_alg».proof.Defs
import proofs.«158750_g2000001118044285_pallasbulk_215_30_alg».proof.Proof.Gen.Kernel
import proofs.«158750_g2000001118044285_pallasbulk_215_30_alg».proof.Proof.Gen.Kernel.Skeleton
import proofs.«158750_g2000001118044285_pallasbulk_215_30_alg».proof.Proof.Gen.Kernel.Launch
import proofs.«158750_g2000001118044285_pallasbulk_215_30_alg».proof.Proof.Gen.Kernel.Points
import proofs.«158750_g2000001118044285_pallasbulk_215_30_alg».proof.Proof.Gen.Kernel.Frame
import proofs.«158750_g2000001118044285_pallasbulk_215_30_alg».proof.Proof.Gen.KernelIdeal
import proofs.«158750_g2000001118044285_pallasbulk_215_30_alg».proof.Proof.Gen.KernelIdeal.Skeleton
import proofs.«158750_g2000001118044285_pallasbulk_215_30_alg».proof.Proof.Gen.KernelIdeal.Launch
import proofs.«158750_g2000001118044285_pallasbulk_215_30_alg».proof.Proof.Gen.KernelIdeal.Points
import proofs.«158750_g2000001118044285_pallasbulk_215_30_alg».proof.Proof.Gen.KernelIdeal.Frame
import proofs.«158750_g2000001118044285_pallasbulk_215_30_alg».proof.Proof.Gen.ReferenceIdeal
import proofs.«158750_g2000001118044285_pallasbulk_215_30_alg».proof.Proof.Gen.ReferenceIdeal.Skeleton
import proofs.«158750_g2000001118044285_pallasbulk_215_30_alg».proof.Proof.Gen.ReferenceIdeal.Launch
import proofs.«158750_g2000001118044285_pallasbulk_215_30_alg».proof.Proof.Gen.ReferenceIdeal.Points
import proofs.«158750_g2000001118044285_pallasbulk_215_30_alg».proof.Proof.Gen.ReferenceIdeal.Frame
import proofs.«158750_g2000001118044285_pallasbulk_215_30_alg».proof.Proof.Gen.Pre_finite_inputs
import proofs.«158750_g2000001118044285_pallasbulk_215_30_alg».proof.Proof.KernelValue
import proofs.«158750_g2000001118044285_pallasbulk_215_30_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ => Cert.ReferenceIdeal.Gen.frame m ρ

/-- The ideal pass rewrote no operation. -/
theorem preserves : Cert.preserves_Kernel_KernelIdeal := trivial

/-- Both runs end at the network's first 24 output columns over the whole batch, of arguments that agree. -/
theorem algebraic : Cert.algebraic_KernelIdeal_ReferenceIdeal := by
  intro m ρ m' ρ' _ hagree
  refine ⟨fun c => Cert.KernelIdeal.Result.net m c, Cert.KernelIdeal.Result.run m ρ, ?_⟩
  refine (θ_run Cert.ReferenceIdeal.defs _ _).mono (fun _ h c => ⟨(h c).1.trans ?_, (h c).2⟩)
    (Cert.ReferenceIdeal.Result.run m' ρ')
  show Cert.ReferenceIdeal.Result.net m' c = Cert.KernelIdeal.Result.net m c
  unfold Cert.ReferenceIdeal.Result.net Cert.KernelIdeal.Result.net
  rw [(hagree c).1, (hagree c).2.1, (hagree c).2.2.1, (hagree c).2.2.2.1, (hagree c).2.2.2.2.1,
    (hagree c).2.2.2.2.2.1, (hagree c).2.2.2.2.2.2]

theorem claim : Cert.Claim := ⟨Cert.Kernel.Gen.facts, Cert.KernelIdeal.Gen.facts, Cert.ReferenceIdeal.Gen.facts,
  Cert.Pre_finite_inputs.Gen.facts, frame_kernel, frame_ideal, frame_reference, preserves, algebraic⟩

end Cert.Proof

end
